-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x2048 : Shape := ⟨2, ![64, 2048]⟩
abbrev S2048x64 : Shape := ⟨2, ![2048, 64]⟩
abbrev S2048x1 : Shape := ⟨2, ![2048, 1]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S2048x64 : S_.BroadcastsInDim S2048x64 (![] : Fin 0 → Fin S2048x64.rank)
  reducesTo_S2048x64_S_d0_1 : S2048x64.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  main_v18

def fn {F : FTy → Type} [FloatOps F] (main_arg0 : FVec F S4x4096x2048 .f32) (main_arg1 : FVec F S64x2048 .f32) (main_arg2 : FVec F S2048x64 .f32) (main_arg3 : FVec F S2048x1 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_v13 main_v16
-- ==== Kernel.lean ====
abbrev S4x4096x2048 : Shape := ⟨3, ![4, 4096, 2048]⟩
abbrev S64x2048 : Shape := ⟨2, ![64, 2048]⟩
abbrev S2048x64 : Shape := ⟨2, ![2048, 64]⟩
abbrev S2048x1 : Shape := ⟨2, ![2048, 1]⟩
abbrev S16384x2048 : Shape := ⟨2, ![16384, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩
abbrev S1024x64 : Shape := ⟨2, ![1024, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S2048x64, .f32⟩
  | .hbm, ⟨3, _⟩ => ⟨S2048x1, .f32⟩
  | .hbm, ⟨4, _⟩ => ⟨S16384x2048, .f32⟩
  | .hbm, ⟨5, _⟩ => ⟨S2048x64, .f32⟩
  | .hbm, ⟨6, _⟩ => ⟨S64x2048, .f32⟩
  | .hbm, ⟨7, _⟩ => ⟨S64x2048, .bf16⟩
  | .hbm, ⟨8, _⟩ => ⟨S1x2048, .f32⟩
  | .hbm, ⟨9, _⟩ => ⟨S16384x2048, .f32⟩
  | .hbm, ⟨10, _⟩ => ⟨S4x4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x64, .f32⟩
  | .local _ .vmem, ⟨4, _⟩ => ⟨S64x2048, .bf16⟩
  | .local _ .vmem, ⟨5, _⟩ => ⟨S1024x2048, .f32⟩
  | .local _ .vmem, ⟨6, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x2048_S16384x2048 : S4x4096x2048.ShapeCasts S16384x2048
  transposes_S64x2048_S2048x64_1_0 : S64x2048.Transposes [1, 0] S2048x64
  transposes_S2048x64_S64x2048_1_0 : S2048x64.Transposes [1, 0] S64x2048
  bitsLt_bf16_f32 : FTy.bits .bf16 < FTy.bits .f32
  shapeCasts_S2048x1_S1x2048 : S2048x1.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S1024x1_S1024x64 : S1024x1.Broadcasts S1024x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S16384x2048_S4x4096x2048 : S16384x2048.ShapeCasts S4x4096x2048
  dot_S1024x2048_S2048x64_S1024x64_1_0_0_1_n_n_wf : DotDims.WF S1024x2048 S2048x64 S1024x64 [1] [0] [0] [1] [] []
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .bf16 = 32 ∨ (Rect.block (s := S64x2048) S64x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S16384x2048.size a
  hwx0_4 : ∀ i : grid0.Coords, EltTy.bits .f32 = 32 ∨ (Rect.block (s := S16384x2048) S1024x2048.size (cc0_transform_4 i) (hinb0_4 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S64x2048 : Shape := ⟨2, ![64, 2048]⟩
abbrev S2048x64 : Shape := ⟨2, ![2048, 64]⟩
abbrev S2048x1 : Shape := ⟨2, ![2048, 1]⟩
abbrev S2048 : Shape := ⟨1, ![2048]⟩
abbrev S1x1x2048 : Shape := ⟨3, ![1, 1, 2048]⟩
abbrev S_ : Shape := ⟨0, ![]⟩
abbrev S4x4096 : Shape := ⟨2, ![4, 4096]⟩
abbrev S4x4096x1 : Shape := ⟨3, ![4, 4096, 1]⟩
abbrev S4x4096x64 : Shape := ⟨3, ![4, 4096, 64]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S2048x64, .f32⟩
  | .hbm, ⟨3, _⟩ => ⟨S2048x1, .f32⟩
  | .hbm, ⟨4, _⟩ => ⟨S2048, .f32⟩
  | .hbm, ⟨5, _⟩ => ⟨S1x1x2048, .f32⟩
  | .hbm, ⟨6, _⟩ => ⟨S4x4096x2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S4x4096x64, .f32⟩
  | .hbm, ⟨22, _⟩ => ⟨S4x4096x2048, .f32⟩
  | .hbm, ⟨23, _⟩ => ⟨S_, .f32⟩
  | .hbm, ⟨24, _⟩ => ⟨S4x4096x2048, .f32⟩
  | .hbm, ⟨25, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  reducesTo_S4x4096x2048_S4x4096_d2 : S4x4096x2048.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  dot_S4x4096x2048_S64x2048_S4x4096x64_2_1_01_0_n_n_wf : DotDims.WF S4x4096x2048 S64x2048 S4x4096x64 [2] [1] [0, 1] [0] [] []
  dot_S4x4096x64_S2048x64_S4x4096x2048_2_1_01_0_n_n_wf : DotDims.WF S4x4096x64 S2048x64 S4x4096x2048 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf
def dot_S4x4096x64_S2048x64_S4x4096x2048_2_1_01_0_n_n : DotDims S4x4096x64 S2048x64 S4x4096x2048 where
  lhsContracting := [2]
  rhsContracting := [1]
  lhsNonContracting := [0, 1]
  rhsNonContracting := [0]
  lhsBatch := []
  rhsBatch := []
  wf := dot_S4x4096x64_S2048x64_S4x4096x2048_2_1_01_0_n_n_wf

class Facts : Prop extends Facts₀ where

variable [Facts]
-- ==== Proof.GatedLowRankLaw.lean ====
/-
  The mathematics of the gated low-rank update, with no program in sight.

  For one token (a row `a` of the input, `D` entries), a down-projection `wd` (`R` rows of `D` entries), one row
  `wu` of the up-projection (`R` entries), a gate value `p` and a scale `c`, two arrangements of one number:

    * gate the rank-`R` intermediate:   `∑ r, ((∑ d, a d · wd r d) · (p · c)) · wu r`
    * gate the input row, scale last:   `(∑ r, (∑ d, (a d · p) · wd r d) · wu r) · c`

  They agree because a product distributes over a finite sum of REAL numbers. On the extended reals that law fails at
  the infinities, so the statement asks every entry to be a real number; the proof pulls the coercion out of the
  sums and products and finishes in `ℝ`.

  Below that, the two arrangements written over the arrays' literal shapes — the input `[4, 4096, 2048]`, the
  down-projection `[64, 2048]`, the up-projection `[2048, 64]`, the gate vector `[2048, 1]` — with the gate value
  the logistic function of the row's inner product with the gate vector, and the scale the number the word
  `0x40000000` denotes (two).
-/
import Idealize.ShloMosaic.PureOps.Ideal
import Idealize.ShloMosaic.Lib.ValueIdx

noncomputable section

open scoped BigOperators

namespace Cert.GatedLowRank

open Idealize.ShloMosaic Idealize.ShloMosaic.ValueIdx

/-! ## Finite sums of reals inside the extended reals -/

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The law, over the reals and then over real-valued extended reals -/

/-- Over `ℝ`: gating (and scaling) the rank-`R` intermediate is gating the input row and scaling the result. -/
theorem gated_sum_real {D R : Type} [Fintype D] [Fintype R] (a : D → ℝ) (wd : R → D → ℝ) (wu : R → ℝ) (p c : ℝ) :
    ∑ r, ((∑ d, a d * wd r d) * (p * c)) * wu r = (∑ r, (∑ d, (a d * p) * wd r d) * wu r) * c := by
  rw [Finset.sum_mul]
  refine Finset.sum_congr rfl fun r _ => ?_
  have h : ∑ d, a d * p * wd r d = (∑ d, a d * wd r d) * p := by
    rw [Finset.sum_mul]; exact Finset.sum_congr rfl fun d _ => by ring
  rw [h]; ring

/-- The same for extended reals that are all real numbers. -/
theorem gated_sum {D R : Type} [Fintype D] [Fintype R] (a : D → EReal) (wd : R → D → EReal) (wu : R → EReal)
    (p c : EReal) (ha : ∀ d, ∃ v : ℝ, a d = v) (hwd : ∀ r d, ∃ v : ℝ, wd r d = v) (hwu : ∀ r, ∃ v : ℝ, wu r = v)
    (hp : ∃ v : ℝ, p = v) (hc : ∃ v : ℝ, c = v) :
    ∑ r, ((∑ d, a d * wd r d) * (p * c)) * wu r = (∑ r, (∑ d, (a d * p) * wd r d) * wu r) * c := by
  choose a' ha using ha
  choose wd' hwd using hwd
  choose wu' hwu using hwu
  obtain ⟨p', rfl⟩ := hp
  obtain ⟨c', rfl⟩ := hc
  simp only [ha, hwd, hwu, ← EReal.coe_mul, ← coe_finset_sum]
  exact congrArg _ (gated_sum_real a' wd' wu' p' c')

/-- The logistic function of any extended real is a real number (`0` at `-∞`, `1` at `+∞`). -/
theorem logistic_real (s : EReal) : ∃ v : ℝ, Ideal.logistic s = v := by
  induction s using EReal.rec with
  | bot => exact ⟨0, by rw [Ideal.logistic_bot]; rfl⟩
  | top => exact ⟨1, by rw [Ideal.logistic_top]; rfl⟩
  | coe r => exact ⟨_, Ideal.logistic_coe r⟩

/-! ## The two arrangements over the arrays -/

/-- The scale: the number the word `0x40000000` denotes. -/
def scale : EReal := Ideal.ofBits .f32 0x40000000#32

/-- It is the real number two. -/
theorem scale_eq : scale = ((2 : ℝ) : EReal) := by
  unfold scale
  simp [Ideal.ofBits, Ideal.ieee, -EReal.coe_mul]
  norm_num

/-- Token `(b, s)`'s gate: the logistic function of its row's inner product with the gate vector. -/
def gate (x : (⟨3, ![4, 4096, 2048]⟩ : Shape).Idx → EReal) (g : (⟨2, ![2048, 1]⟩ : Shape).Idx → EReal)
    (b : Fin 4) (s : Fin 4096) : EReal :=
  Ideal.logistic (∑ d : Fin 2048, x (ix3 b s d) * g (ix2 d (0 : Fin 1)))

/-- Entry `(b, s, o)` with the gate and the scale applied to the rank-64 intermediate. -/
def gatedMiddle (x : (⟨3, ![4, 4096, 2048]⟩ : Shape).Idx → EReal) (wd : (⟨2, ![64, 2048]⟩ : Shape).Idx → EReal)
    (wu : (⟨2, ![2048, 64]⟩ : Shape).Idx → EReal) (g : (⟨2, ![2048, 1]⟩ : Shape).Idx → EReal)
    (b : Fin 4) (s : Fin 4096) (o : Fin 2048) : EReal :=
  ∑ r : Fin 64, ((∑ d : Fin 2048, x (ix3 b s d) * wd (ix2 r d)) * (gate x g b s * scale)) * wu (ix2 o r)

/-- Entry `(b, s, o)` with the gate applied to the input row and the scale to the result. -/
def gatedInput (x : (⟨3, ![4, 4096, 2048]⟩ : Shape).Idx → EReal) (wd : (⟨2, ![64, 2048]⟩ : Shape).Idx → EReal)
    (wu : (⟨2, ![2048, 64]⟩ : Shape).Idx → EReal) (g : (⟨2, ![2048, 1]⟩ : Shape).Idx → EReal)
    (b : Fin 4) (s : Fin 4096) (o : Fin 2048) : EReal :=
  (∑ r : Fin 64, (∑ d : Fin 2048, (x (ix3 b s d) * gate x g b s) * wd (ix2 r d)) * wu (ix2 o r)) * scale

/-- On real-valued input, down- and up-projection the two arrangements are one number, entry by entry (the gate
    vector may hold anything: the logistic function is real everywhere). -/
theorem gatedMiddle_eq_gatedInput (x : (⟨3, ![4, 4096, 2048]⟩ : Shape).Idx → EReal)
    (wd : (⟨2, ![64, 2048]⟩ : Shape).Idx → EReal) (wu : (⟨2, ![2048, 64]⟩ : Shape).Idx → EReal)
    (g : (⟨2, ![2048, 1]⟩ : Shape).Idx → EReal) (hx : ∀ i, ∃ v : ℝ, x i = v) (hwd : ∀ i, ∃ v : ℝ, wd i = v)
    (hwu : ∀ i, ∃ v : ℝ, wu i = v) (b : Fin 4) (s : Fin 4096) (o : Fin 2048) :
    gatedMiddle x wd wu g b s o = gatedInput x wd wu g b s o :=
  gated_sum (fun d : Fin 2048 => x (ix3 b s d)) (fun (r : Fin 64) (d : Fin 2048) => wd (ix2 r d))
    (fun r : Fin 64 => wu (ix2 o r)) (gate x g b s) scale (fun d => hx _) (fun r d => hwd _) (fun r => hwu _)
    (logistic_real _) ⟨2, scale_eq⟩

end Cert.GatedLowRank

end
-- ==== Proof.ReferenceReading.lean ====
/-
  The reference, read at an index.

  The reference computes, for token `(b, s)`, the inner product of its input row with the gate vector, takes
  `1 / (1 + e^(-·))` of it — the logistic function, spelt with a negation, an exponential, a sum and a quotient —,
  multiplies the input row by that gate, contracts the gated row with the down-projection over the 2048 input
  features, contracts the result with the up-projection over the 64 ranks, and multiplies by two. Read entry by
  entry this is `GatedLowRank.gatedInput`: every broadcast and reshape only moves an index, the words
  `0x3F800000` and `0x00000000` denote one and zero, and the sum from zero is the sum.
-/
import proofs.«129179_g4131758539051_cont_8to1_b_278_10_alg».proof.Proof.Gen.ReferenceIdeal.Read
import proofs.«129179_g4131758539051_cont_8to1_b_278_10_alg».proof.Proof.GatedLowRankLaw
import Idealize.ShloMosaic.PureOps.Ideal.Laws
import Idealize.ShloMosaic.PureOps.IdealRules

noncomputable section

open scoped BigOperators

namespace Cert.ReferenceIdeal.Reading

open Cert.ReferenceIdeal Cert.ReferenceIdeal.Read Cert.GatedLowRank
open Idealize.ShloMosaic Idealize.ShloMosaic.ValueIdx

/-- The word `0x3F800000` denotes one. -/
theorem one_word : Ideal.ofBits .f32 0x3F800000#32 = 1 := IdealRules.sign_bit.ideal_onePat .f32

/-! ## Where each layout step reads -/

/-- Summand `k` of token `(b, s)`'s gate score sits at `(b, s, k)`. -/
theorem score_idx (b : Fin 4) (s : Fin 4096) (k : Fin 2048) : idx_main_v4 (ix2 b s) k = ix3 b s k :=
  funext fun a => Fin.ext (by match a with | ⟨0, _⟩ => rfl | ⟨1, _⟩ => rfl | ⟨2, _⟩ => rfl)

/-- The gate vector broadcast over the tokens reads, at `(b, s, k)`, its entry `(k, 0)`. -/
theorem gatevec_idx (b : Fin 4) (s : Fin 4096) (k : Fin 2048) :
    idx_main_v0 (idx_main_v1 (idx_main_v2 (ix3 b s k))) = ix2 k (0 : Fin 1) :=
  funext fun a => Fin.ext (by
    match a with
    | ⟨0, _⟩ => show k.val / 1 = k.val; exact Nat.div_one _
    | ⟨1, _⟩ => rfl)

/-- The gate broadcast over the features reads, at `(b, s, d)`, token `(b, s)`'s. -/
theorem gate_idx (b : Fin 4) (s : Fin 4096) (d : Fin 2048) : idx_main_v11 (idx_main_v12 (ix3 b s d)) = ix2 b s :=
  funext fun a => Fin.ext (by match a with | ⟨0, _⟩ => rfl | ⟨1, _⟩ => rfl)

/-- The first contraction at `(b, s, r)` pairs the gated row's entry `(b, s, d)` … -/
theorem down_lidx (b : Fin 4) (s : Fin 4096) (r : Fin 64) (d : Fin 2048) : lidx_main_v14 (ix3 b s r) d = ix3 b s d :=
  funext fun a => Fin.ext (by match a with | ⟨0, _⟩ => rfl | ⟨1, _⟩ => rfl | ⟨2, _⟩ => rfl)
/-- … with the down-projection's entry `(r, d)`. -/
theorem down_ridx (b : Fin 4) (s : Fin 4096) (r : Fin 64) (d : Fin 2048) : ridx_main_v14 (ix3 b s r) d = ix2 r d :=
  funext fun a => Fin.ext (by match a with | ⟨0, _⟩ => rfl | ⟨1, _⟩ => rfl)
/-- The second contraction at `(b, s, o)` pairs the intermediate's entry `(b, s, r)` … -/
theorem up_lidx (b : Fin 4) (s : Fin 4096) (o : Fin 2048) (r : Fin 64) : lidx_main_v15 (ix3 b s o) r = ix3 b s r :=
  funext fun a => Fin.ext (by match a with | ⟨0, _⟩ => rfl | ⟨1, _⟩ => rfl | ⟨2, _⟩ => rfl)
/-- … with the up-projection's entry `(o, r)`. -/
theorem up_ridx (b : Fin 4) (s : Fin 4096) (o : Fin 2048) (r : Fin 64) : ridx_main_v15 (ix3 b s o) r = ix2 o r :=
  funext fun a => Fin.ext (by match a with | ⟨0, _⟩ => rfl | ⟨1, _⟩ => rfl)

/-! ## The stages -/

variable (x0 : (⟨S4x4096x2048, .f32⟩ : BufTy).Contents (Elt Ideal)) (x1 : (⟨S64x2048, .f32⟩ : BufTy).Contents (Elt Ideal))
  (x2 : (⟨S2048x64, .f32⟩ : BufTy).Contents (Elt Ideal)) (x3 : (⟨S2048x1, .f32⟩ : BufTy).Contents (Elt Ideal))

/-- Summand `k` of the gate score: the input's entry times the gate vector's. -/
theorem score_term (b : Fin 4) (s : Fin 4096) (k : Fin 2048) :
    val_main_v3 (F := Ideal) x0 x3 (ix3 b s k) = x0 (ix3 b s k) * x3 (ix2 k (0 : Fin 1)) := by
  rw [val_main_v3_apply, val_main_v2_apply, val_main_v1_apply, val_main_v0_apply, gatevec_idx]
  rfl

/-- The reference's quotient `1 / (1 + e^(-score))` at token `(b, s)` is the gate. -/
theorem gate_read (b : Fin 4) (s : Fin 4096) : val_main_v10 (F := Ideal) x0 x3 (ix2 b s) = gate x0 x3 b s := by
  rw [val_main_v10_apply, val_main_v9_apply, val_main_cst_1_apply, val_main_v8_apply, val_main_v7_apply,
    val_main_cst_0_apply, val_main_v6_apply, val_main_v5_apply, val_main_v4_apply, val_main_cst_apply]
  have hs : ∑ k : Fin 2048, val_main_v3 (F := Ideal) x0 x3 (idx_main_v4 (ix2 b s) k)
      = ∑ d : Fin 2048, x0 (ix3 b s d) * x3 (ix2 d (0 : Fin 1)) :=
    Finset.sum_congr rfl fun k _ => by rw [score_idx, score_term]
  rw [hs]
  unfold gate Ideal.logistic
  simp only [Ideal.hostDivf_def, Ideal.addf_def, Ideal.hostUnary_exp_def, Ideal.hostNegf_def, Ideal.negf_def,
    Ideal.ofBits_def, one_word, Ideal.ofBits_zero_f32, zero_add]

/-- The gated input at `(b, s, d)`. -/
theorem gated_row (b : Fin 4) (s : Fin 4096) (d : Fin 2048) :
    val_main_v13 (F := Ideal) x0 x3 (ix3 b s d) = x0 (ix3 b s d) * gate x0 x3 b s := by
  rw [val_main_v13_apply, val_main_v12_apply, val_main_v11_apply, gate_idx, gate_read]
  rfl

/-- The rank-64 intermediate at `(b, s, r)`. -/
theorem down_read (b : Fin 4) (s : Fin 4096) (r : Fin 64) :
    val_main_v14 (F := Ideal) x0 x1 x3 (ix3 b s r) = ∑ d : Fin 2048, (x0 (ix3 b s d) * gate x0 x3 b s) * x1 (ix2 r d) := by
  rw [val_main_v14_apply]
  exact Finset.sum_congr rfl fun d _ => by rw [down_lidx, down_ridx, gated_row]

/-- THE REFERENCE'S RESULT, entry by entry: the gate on the input row, the scale last. -/
theorem result_eq :
    val_main_v17 (F := Ideal) x0 x1 x2 x3 = fun i => gatedInput x0 x1 x2 x3 (i 0) (i 1) (i 2) := by
  funext i
  obtain ⟨b, s, o, rfl⟩ : ∃ (b : Fin 4) (s : Fin 4096) (o : Fin 2048), i = ix3 b s o := ⟨i 0, i 1, i 2, eq_ix3 i⟩
  rw [val_main_v17_apply, val_main_v15_apply, val_main_v16_apply, val_main_cst_2_apply]
  show (∑ k : Fin 64, val_main_v14 (F := Ideal) x0 x1 x3 (lidx_main_v15 (ix3 b s o) k) * x2 (ridx_main_v15 (ix3 b s o) k))
      * Ideal.ofBits .f32 0x40000000#32 = gatedInput x0 x1 x2 x3 b s o
  unfold gatedInput scale
  exact congrArg (· * _) (Finset.sum_congr rfl fun r _ => by rw [up_lidx, up_ridx, down_read])

end Cert.ReferenceIdeal.Reading

end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.BodyAtIndex.lean ====
/-
  What one run of the kernel body stores, read at an entry of the block.

  The body holds a block of 1024 tokens (`x0`, 1024 × 2048), the gate vector as a row (`x1`, 1 × 2048), the
  down-projection transposed (`x2`, 2048 × 64) and the up-projection transposed (`x3`, 64 × 2048). It stores

      out[p, q] = ∑ r, ((∑ d, x0[p, d] · x2[d, r]) · (logistic (∑ d, x0[p, d] · x1[0, d]) · 2)) · x3[r, q] :

  the lane sum of `x0 · x1` along the features is the token's gate score, the first matrix product into a zero
  accumulator is the rank-64 intermediate, the gate (times the scale) is a column broadcast along the 64 ranks,
  the change of float format in front of the second matrix product is the identity on extended reals, and the
  second matrix product into a zero accumulator is the sum over the ranks.
-/
import proofs.«129179_g4131758539051_cont_8to1_b_278_10_alg».proof.Proof.Gen.KernelIdeal.Skeleton
import proofs.«129179_g4131758539051_cont_8to1_b_278_10_alg».proof.Proof.GatedLowRankLaw
import proofs.«129179_g4131758539051_cont_8to1_b_278_10_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Cert.GatedLowRank Cert.ColumnForms
open Idealize.ShloMosaic Idealize.ShloMosaic.ValueIdx

/-! ## The lane sum: a token's gate score -/

/-- The sum along the features of the token block times the broadcast gate row, at token `p`, is the inner product
    of row `p` with the gate row. -/
theorem score_at (x0 : FVec Ideal S1024x2048 .f32) (x1 : FVec Ideal S1x2048 .f32) (p : Fin 1024) :
    multiReduction (F := Ideal) .add [1] S1024 (mulf x0 (broadcastTo S1024x2048 x1 broadcasts_S1x2048_S1024x2048))
        0x00000000#32 reduces_S1024x2048_S1024 (.inl rfl) rfl (ix1 p)
      = ∑ d : Fin 2048, x0 (ix2 p d) * x1 (ix2 (0 : Fin 1) d) := by
  refine (Ideal.multiReduction_add_single _ _ reduces_S1024x2048_S1024 _ _ (ix1 p)).trans ?_
  show ∑ d : Fin 2048, _ = _
  refine Finset.sum_congr rfl fun d _ => ?_
  have e : (reduces_S1024x2048_S1024 : S1024x2048.Reduces [1] S1024).lift (ix1 p) d = ix2 p d :=
    funext fun a => Fin.ext (by match a with | ⟨0, _⟩ => rfl | ⟨1, _⟩ => rfl)
  rw [e, mulf_apply, broadcastTo_1b_ab_apply]

/-! ## The two matrix products into zero accumulators -/

/-! Where each product reads its operands: the row coordinate on the left, the column coordinate on the right, the
    summation coordinate on the contracted axis of each. -/

theorem dot_S1024x2048_S2048x64_S1024x64_1_0_0_1_n_n_lhs0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem dot_S1024x2048_S2048x64_S1024x64_1_0_0_1_n_n_lhs1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem dot_S1024x2048_S2048x64_S1024x64_1_0_0_1_n_n_rhs0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem dot_S1024x2048_S2048x64_S1024x64_1_0_0_1_n_n_rhs1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

theorem dot_S1024x64_S64x2048_S1024x2048_1_0_0_1_n_n_lhs0 (i : S1024x2048.Idx) (q : dot_S1024x64_S64x2048_S1024x2048_1_0_0_1_n_n.contr.Idx) : (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem dot_S1024x64_S64x2048_S1024x2048_1_0_0_1_n_n_lhs1 (i : S1024x2048.Idx) (q : dot_S1024x64_S64x2048_S1024x2048_1_0_0_1_n_n.contr.Idx) : (dot_S1024x64_S64x2048_S1024x2048_1_0_0_1_n_n.lhsIdx i q 1).val = (q ⟨0, by decide⟩).val :=
  dot_S1024x64_S64x2048_S1024x2048_1_0_0_1_n_n.lhsIdx_val_of_single rfl i q
theorem dot_S1024x64_S64x2048_S1024x2048_1_0_0_1_n_n_rhs0 (i : S1024x2048.Idx) (q : dot_S1024x64_S64x2048_S1024x2048_1_0_0_1_n_n.contr.Idx) : (dot_S1024x64_S64x2048_S1024x2048_1_0_0_1_n_n.rhsIdx i q 0).val = (q ⟨0, by decide⟩).val :=
  dot_S1024x64_S64x2048_S1024x2048_1_0_0_1_n_n.rhsIdx_val_of_single rfl i q
theorem dot_S1024x64_S64x2048_S1024x2048_1_0_0_1_n_n_rhs1 (i : S1024x2048.Idx) (q : dot_S1024x64_S64x2048_S1024x2048_1_0_0_1_n_n.contr.Idx) : (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- Tokens times the transposed down-projection: entry `(p, r)` sums over the 2048 features. -/
theorem down_at (A : FVec Ideal S1024x2048 .f32) (B : FVec Ideal S2048x64 .f32) (p : Fin 1024) (r : Fin 64) :
    matmul dot_S1024x2048_S2048x64_S1024x64_1_0_0_1_n_n none A B (constant (F := Ideal) S1024x64 .f32 0x00000000#32) (ix2 p r)
      = ∑ k : Fin 2048, A (ix2 p k) * B (ix2 k r) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p r) ((contrEquiv1 dot_S1024x2048_S2048x64_S1024x64_1_0_0_1_n_n 2048 rfl rfl).symm k) = ix2 p k := funext fun a => Fin.ext (by
    match a with
    | ⟨0, _⟩ => exact dot_S1024x2048_S2048x64_S1024x64_1_0_0_1_n_n_lhs0 _ _
    | ⟨1, _⟩ => exact (dot_S1024x2048_S2048x64_S1024x64_1_0_0_1_n_n_lhs1 _ _).trans hk)
  have er : dot_S1024x2048_S2048x64_S1024x64_1_0_0_1_n_n.rhsIdx (ix2 p r) ((contrEquiv1 dot_S1024x2048_S2048x64_S1024x64_1_0_0_1_n_n 2048 rfl rfl).symm k) = ix2 k r := funext fun a => Fin.ext (by
    match a with
    | ⟨0, _⟩ => exact (dot_S1024x2048_S2048x64_S1024x64_1_0_0_1_n_n_rhs0 _ _).trans hk
    | ⟨1, _⟩ => exact dot_S1024x2048_S2048x64_S1024x64_1_0_0_1_n_n_rhs1 _ _)
  rw [el, er]

/-- The gated intermediate times the transposed up-projection: entry `(p, q)` sums over the 64 ranks. -/
theorem up_at (A : FVec Ideal S1024x64 .bf16) (B : FVec Ideal S64x2048 .bf16) (p : Fin 1024) (q : Fin 2048) :
    matmul dot_S1024x64_S64x2048_S1024x2048_1_0_0_1_n_n none A B (constant (F := Ideal) S1024x2048 .f32 0x00000000#32) (ix2 p q)
      = ∑ k : Fin 64, A (ix2 p k) * B (ix2 k q) := by
  simp only [matmul]
  rw [Ideal.matmul_constant_zero_apply, ← Equiv.sum_comp (contrEquiv1 dot_S1024x64_S64x2048_S1024x2048_1_0_0_1_n_n 64 rfl rfl).symm]
  refine Finset.sum_congr rfl fun k _ => ?_
  have hk := contrEquiv1_symm_val dot_S1024x64_S64x2048_S1024x2048_1_0_0_1_n_n 64 rfl rfl k
  have el : dot_S1024x64_S64x2048_S1024x2048_1_0_0_1_n_n.lhsIdx (ix2 p q) ((contrEquiv1 dot_S1024x64_S64x2048_S1024x2048_1_0_0_1_n_n 64 rfl rfl).symm k) = ix2 p k := funext fun a => Fin.ext (by
    match a with
    | ⟨0, _⟩ => exact dot_S1024x64_S64x2048_S1024x2048_1_0_0_1_n_n_lhs0 _ _
    | ⟨1, _⟩ => exact (dot_S1024x64_S64x2048_S1024x2048_1_0_0_1_n_n_lhs1 _ _).trans hk)
  have er : dot_S1024x64_S64x2048_S1024x2048_1_0_0_1_n_n.rhsIdx (ix2 p q) ((contrEquiv1 dot_S1024x64_S64x2048_S1024x2048_1_0_0_1_n_n 64 rfl rfl).symm k) = ix2 k q := funext fun a => Fin.ext (by
    match a with
    | ⟨0, _⟩ => exact (dot_S1024x64_S64x2048_S1024x2048_1_0_0_1_n_n_rhs0 _ _).trans hk
    | ⟨1, _⟩ => exact dot_S1024x64_S64x2048_S1024x2048_1_0_0_1_n_n_rhs1 _ _)
  rw [el, er]

/-! ## The stored value at an entry -/

/-- THE BODY'S STORE at `(p, q)`: the sum over the ranks of the gated, scaled intermediate times the up-projection. -/
theorem stored_at (x0 : FVec Ideal S1024x2048 .f32) (x1 : FVec Ideal S1x2048 .f32) (x2 : FVec Ideal S2048x64 .f32)
    (x3 : FVec Ideal S64x2048 .bf16) (p : Fin 1024) (q : Fin 2048) :
    k0_pay1 (F := Ideal) x0 x1 x2 x3 (ix2 p q)
      = ∑ r : Fin 64, ((∑ d : Fin 2048, x0 (ix2 p d) * x2 (ix2 d r))
          * (Ideal.logistic (∑ d : Fin 2048, x0 (ix2 p d) * x1 (ix2 (0 : Fin 1) d)) * scale)) * x3 (ix2 r q) := by
  unfold k0_pay1
  dsimp only
  simp only [shapeCast_self]
  refine (up_at _ _ p q).trans (Finset.sum_congr rfl fun r _ => ?_)
  refine congrArg (· * x3 (ix2 r q)) ?_
  refine congrArg₂ (· * ·) (down_at x0 x2 p r) ?_
  refine (broadcastTo_a1_ab_apply _ broadcasts_S1024x1_S1024x64 p r).trans ?_
  refine congrArg (fun z => Ideal.logistic z * scale) ?_
  refine (shapeCast_a_a1_apply _ shapeCasts_S1024_S1024x1 p (0 : Fin 1)).trans ?_
  exact score_at x0 x1 p

end Cert.KernelIdeal.Body

end
-- ==== Proof.RegionEntry.lean ====
/-
  What the kernel's region finds in its four operand arrays.

  Before the region the program re-lays each argument: the input `[4, 4096, 2048]` is flattened to `[16384, 2048]`
  (token `(b, s)` becomes row `4096·b + s`), the down-projection `[64, 2048]` and the up-projection `[2048, 64]` are
  transposed (the latter also changes float format, the identity on extended reals), and the gate vector
  `[2048, 1]` is turned into a row `[1, 2048]`. Each re-laid array read at an index is the argument at one index.
-/
import proofs.«129179_g4131758539051_cont_8to1_b_278_10_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen
open Idealize.ShloMosaic Idealize.ShloMosaic.TcCoe Idealize.ShloMosaic.ValueIdx Idealize.SL.Sem Idealize.ShloMosaic.StableHlo

/-! ## The re-layings at an index -/

section Layout
variable {α : Type}

/-- The flattened input at row `4096·b + s` is the input at token `(b, s)`: the two indices have one row-major position. -/
theorem flatten_apply (x : S4x4096x2048.Idx → α) (b : Fin 4) (s : Fin 4096) (d : Fin 2048) (T : Fin 16384)
    (hT : T.val = b.val * 4096 + s.val) :
    shapeCast S16384x2048 x shapeCasts_S4x4096x2048_S16384x2048 (ix2 T d) = x (ix3 b s d) :=
  shapeCast_apply x _ _ _ (by
    rw [Shape.rowMajor_val_three, Shape.rowMajor_val_two]
    show (b.val * 4096 + s.val) * 2048 + d.val = T.val * 2048 + d.val
    rw [hT])

/-- The gate vector as a row: entry `(0, d)` is the vector's entry `(d, 0)`. -/
theorem row_apply (x : S2048x1.Idx → α) (d : Fin 2048) :
    shapeCast S1x2048 x shapeCasts_S2048x1_S1x2048 (ix2 (0 : Fin 1) d) = x (ix2 d (0 : Fin 1)) :=
  shapeCast_apply x _ _ _ (by
    rw [Shape.rowMajor_val_two, Shape.rowMajor_val_two]
    show d.val * 1 + 0 = 0 * 2048 + d.val
    omega)

end Layout

/-! ## The arrays as the region finds them -/

variable (m : (ℓ : Loc nD τ sig) → Buf (Elt Ideal) ℓ)

/-- The region's first operand is the flattened input. -/
theorem tokens_entry (c : Dev nD) :
    (V m c main_v0 : S16384x2048.Idx → EReal)
      = shapeCast S16384x2048 (m ((c : Thread nD τ).loc main_arg0)) shapeCasts_S4x4096x2048_S16384x2048 := by
  show StableHlo.after hostOps0 (fun b => m (c, b)) (Proc.devRef .tc main_v0) = _
  after_results <;> rfl

/-- Its second operand is the gate vector as a row. -/
theorem gaterow_entry (c : Dev nD) :
    (V m c main_v4 : S1x2048.Idx → EReal)
      = shapeCast S1x2048 (m ((c : Thread nD τ).loc main_arg3)) shapeCasts_S2048x1_S1x2048 := by
  show StableHlo.after hostOps0 (fun b => m (c, b)) (Proc.devRef .tc main_v4) = _
  after_results <;> rfl

/-- Its third operand is the down-projection transposed. -/
theorem down_entry (c : Dev nD) :
    (V m c main_v1 : S2048x64.Idx → EReal)
      = transpose S2048x64 [1, 0] (m ((c : Thread nD τ).loc main_arg1)) transposes_S64x2048_S2048x64_1_0 := by
  show StableHlo.after hostOps0 (fun b => m (c, b)) (Proc.devRef .tc main_v1) = _
  after_results <;> rfl

/-- Its fourth operand is the up-projection transposed (and narrowed in format, which changes no extended real). -/
theorem up_entry (c : Dev nD) :
    (V m c main_v3 : S64x2048.Idx → EReal)
      = transpose S64x2048 [1, 0] (m ((c : Thread nD τ).loc main_arg2)) transposes_S2048x64_S64x2048_1_0 := by
  show StableHlo.after hostOps0 (fun b => m (c, b)) (Proc.devRef .tc main_v3) = _
  after_results <;> rfl

/-! ## The same, entry by entry -/

/-- Row `4096·b + s` of the first operand is token `(b, s)` of the input. -/
theorem tokens_at (c : Dev nD) (b : Fin 4) (s : Fin 4096) (d : Fin 2048) (T : Fin 16384) (hT : T.val = b.val * 4096 + s.val) :
    V m c main_v0 (ix2 T d) = m ((c : Thread nD τ).loc main_arg0) (ix3 b s d) :=
  (congrFun (tokens_entry m c) (ix2 T d)).trans (flatten_apply _ b s d T hT)

/-- Entry `(0, d)` of the second operand is the gate vector's entry `(d, 0)`. -/
theorem gaterow_at (c : Dev nD) (d : Fin 2048) :
    V m c main_v4 (ix2 (0 : Fin 1) d) = m ((c : Thread nD τ).loc main_arg3) (ix2 d (0 : Fin 1)) :=
  (congrFun (gaterow_entry m c) (ix2 (0 : Fin 1) d)).trans (row_apply _ d)

/-- Entry `(d, r)` of the third operand is the down-projection's entry `(r, d)`. -/
theorem down_at (c : Dev nD) (d : Fin 2048) (r : Fin 64) :
    V m c main_v1 (ix2 d r) = m ((c : Thread nD τ).loc main_arg1) (ix2 r d) :=
  (congrFun (down_entry m c) (ix2 d r)).trans (transpose_ix2_apply _ transposes_S64x2048_S2048x64_1_0 d r)

/-- Entry `(r, o)` of the fourth operand is the up-projection's entry `(o, r)`. -/
theorem up_at (c : Dev nD) (r : Fin 64) (o : Fin 2048) :
    V m c main_v3 (ix2 r o) = m ((c : Thread nD τ).loc main_arg2) (ix2 o r) :=
  (congrFun (up_entry m c) (ix2 r o)).trans (transpose_ix2_apply _ transposes_S2048x64_S64x2048_1_0 r o)

end Cert.KernelIdeal.Entry

end
-- ==== Proof.BlocksToArray.lean ====
/-
  From the blocks the grid points write back to the kernel program's result.

  Point `t` of the 16-point grid stages rows `1024·t … 1024·t + 1023` of the flattened input together with the whole
  gate row and both whole transposed projections, runs the body, and writes the body's store back as rows
  `1024·t … 1024·t + 1023` of the region's output. So what point `t` writes back is block `t` of ONE function of the
  operand arrays — entry `(T, q)` depends on row `T` of the tokens only —, the 16 blocks tile the 16384 rows, and
  the output array ends at that function. The program's last line views the `[16384, 2048]` output as
  `[4, 4096, 2048]`: entry `(b, s, o)` is row `4096·b + s`, and with the operands read back to the arguments it is
  the gated low-rank update with the gate on the rank-64 intermediate (`GatedLowRank.gatedMiddle`).
-/
import proofs.«129179_g4131758539051_cont_8to1_b_278_10_alg».proof.Proof.Gen.KernelIdeal.Frame
import proofs.«129179_g4131758539051_cont_8to1_b_278_10_alg».proof.Proof.BodyAtIndex
import proofs.«129179_g4131758539051_cont_8to1_b_278_10_alg».proof.Proof.RegionEntry
import Idealize.ShloMosaic.Lib.Pipeline.Value

set_option maxRecDepth 16384

noncomputable section

open scoped BigOperators

namespace Cert.KernelIdeal.Blocks

open Cert.KernelIdeal Cert.KernelIdeal.Gen Cert.GatedLowRank
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The region's output as one function of its operands -/

/-- Entry `(T, q)` of the region's output, from the operand arrays: row `T` of the tokens against the gate row and
    the transposed down-projection, then against column `q` of the transposed up-projection. -/
def flatAt (xf : S16384x2048.Idx → EReal) (g4 : S1x2048.Idx → EReal) (wdT : S2048x64.Idx → EReal)
    (wuT : S64x2048.Idx → EReal) (T : Fin 16384) (q : Fin 2048) : EReal :=
  ∑ r : Fin 64, ((∑ d : Fin 2048, xf (ix2 T d) * wdT (ix2 d r))
    * (Ideal.logistic (∑ d : Fin 2048, xf (ix2 T d) * g4 (ix2 (0 : Fin 1) d)) * scale)) * wuT (ix2 r q)

/-- The whole output, of the operand arrays as the region finds them. -/
def flat (c : Dev nD) : S16384x2048.Idx → EReal := fun i =>
  flatAt (V m c main_v0) (V m c main_v4) (V m c main_v1) (V m c main_v3) ⟨(i 0).val, idx2_lt0 i⟩ ⟨(i 1).val, idx2_lt1 i⟩

/-! ## The index maps, decided over the sixteen points -/

theorem zero_offsets : (![0, 0] : Fin 2 → Nat) = fun _ => 0 := funext fun a => by fin_cases a <;> rfl

/-- The token window and the output window are at block `(t, 0)`; the three whole-array windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each staged block, read where it sits in its array -/

/-- Row `p` of point `t`'s token block is row `1024·t + p` of the tokens. -/
theorem tokens_block (c : Dev nD) (t : Fin cfg0.N) (p : Fin 1024) (d : Fin 2048) (T : Fin 16384)
    (hT : T.val = t.val * 1024 + p.val) : iblk m c 0 t (ix2 p d) = V m c main_v0 (ix2 T d) := by
  obtain ⟨e0, e1, -⟩ := idx_facts t
  have h : ((cfg0.win 0).blk t).view.emb (ix2 p d) = (ix2 T d : S16384x2048.Idx) := by
    funext a; apply Fin.ext
    match a with
    | ⟨0, _⟩ => show win0_0.index t (0 : Fin 2) * 1024 + 1 * p.val = T.val; rw [e0, hT]; omega
    | ⟨1, _⟩ => show win0_0.index t (1 : Fin 2) * 2048 + 1 * d.val = d.val; rw [e1]; omega
  show V m c main_v0 (((cfg0.win 0).blk t).view.emb (ix2 p d)) = V m c main_v0 (ix2 T d)
  rw [h]

/-- The gate row's block is the gate row. -/
theorem gaterow_block (c : Dev nD) (t : Fin cfg0.N) (d : Fin 2048) :
    iblk m c 1 t (ix2 (0 : Fin 1) d) = V m c main_v4 (ix2 (0 : Fin 1) d) := by
  obtain ⟨-, -, e0, e1, -⟩ := idx_facts t
  have h : ((cfg0.win 1).blk t).view.emb (ix2 (0 : Fin 1) d) = (ix2 (0 : Fin 1) d : S1x2048.Idx) := by
    funext a; apply Fin.ext
    match a with
    | ⟨0, _⟩ => show win0_1.index t (0 : Fin 2) * 1 + 1 * 0 = 0; rw [e0]
    | ⟨1, _⟩ => show win0_1.index t (1 : Fin 2) * 2048 + 1 * d.val = d.val; rw [e1]; omega
  show V m c main_v4 (((cfg0.win 1).blk t).view.emb (ix2 (0 : Fin 1) d)) = V m c main_v4 (ix2 (0 : Fin 1) d)
  rw [h]

/-- The transposed down-projection's block is the whole of it. -/
theorem down_block (c : Dev nD) (t : Fin cfg0.N) (d : Fin 2048) (r : Fin 64) :
    iblk m c 2 t (ix2 d r) = V m c main_v1 (ix2 d r) := by
  obtain ⟨-, -, -, -, e0, e1, -⟩ := idx_facts t
  have h : ((cfg0.win 2).blk t).view.emb (ix2 d r) = (ix2 d r : S2048x64.Idx) := by
    funext a; apply Fin.ext
    match a with
    | ⟨0, _⟩ => show win0_2.index t (0 : Fin 2) * 2048 + 1 * d.val = d.val; rw [e0]; omega
    | ⟨1, _⟩ => show win0_2.index t (1 : Fin 2) * 64 + 1 * r.val = r.val; rw [e1]; omega
  show V m c main_v1 (((cfg0.win 2).blk t).view.emb (ix2 d r)) = V m c main_v1 (ix2 d r)
  rw [h]

/-- The transposed up-projection's block is the whole of it. -/
theorem up_block (c : Dev nD) (t : Fin cfg0.N) (r : Fin 64) (q : Fin 2048) :
    iblk m c 3 t (ix2 r q) = V m c main_v3 (ix2 r q) := by
  obtain ⟨-, -, -, -, -, -, e0, e1, -⟩ := idx_facts t
  have h : ((cfg0.win 3).blk t).view.emb (ix2 r q) = (ix2 r q : S64x2048.Idx) := by
    funext a; apply Fin.ext
    match a with
    | ⟨0, _⟩ => show win0_3.index t (0 : Fin 2) * 64 + 1 * r.val = r.val; rw [e0]; omega
    | ⟨1, _⟩ => show win0_3.index t (1 : Fin 2) * 2048 + 1 * q.val = q.val; rw [e1]; omega
  show V m c main_v3 (((cfg0.win 3).blk t).view.emb (ix2 r q)) = V m c main_v3 (ix2 r q)
  rw [h]

/-! ## What a point writes back -/

/-- Entry `(p, q)` of the body's store at point `t` is entry `(1024·t + p, q)` of the one function. -/
theorem stored_entry (c : Dev nD) (t : Fin cfg0.N) (p : Fin 1024) (q : Fin 2048) (T : Fin 16384)
    (hT : T.val = t.val * 1024 + p.val) :
    k0_pay1 (F := Ideal) (iblk m c 0 t) (iblk m c 1 t) (iblk m c 2 t) (iblk m c 3 t) (ix2 p q)
      = flatAt (V m c main_v0) (V m c main_v4) (V m c main_v1) (V m c main_v3) T q := by
  refine (Body.stored_at (iblk m c 0 t) (iblk m c 1 t) (iblk m c 2 t) (iblk m c 3 t) p q).trans ?_
  unfold flatAt
  refine Finset.sum_congr rfl fun r _ => ?_
  rw [up_block m c t r q]
  refine congrArg (· * _) ?_
  refine congrArg₂ (· * ·)
    (Finset.sum_congr rfl fun d _ => by rw [tokens_block m c t p d T hT, down_block m c t d r]) ?_
  exact congrArg (fun z => Ideal.logistic z * scale)
    (Finset.sum_congr rfl fun d _ => by rw [tokens_block m c t p d T hT, gaterow_block m c t d])

/-- The same at any index of the block: where the output window's block puts it in the array. -/
theorem stored_block (c : Dev nD) (t : Fin cfg0.N) (y : S1024x2048.Idx) :
    k0_pay1 (F := Ideal) (iblk m c 0 t) (iblk m c 1 t) (iblk m c 2 t) (iblk m c 3 t) y
      = flat m c (((cfg0.win 4).blk t).view.emb y) := by
  obtain ⟨p, q, rfl⟩ : ∃ (p : Fin 1024) (q : Fin 2048), y = ix2 p q := ⟨y 0, y 1, eq_ix2 y⟩
  obtain ⟨-, -, -, -, -, -, -, -, e0, e1⟩ := idx_facts t
  have hN : t.val < 16 := by have h := t.isLt; have e : cfg0.N = 16 := N_0; omega
  have h0 : (((cfg0.win 4).blk t).view.emb (ix2 p q) 0).val = t.val * 1024 + p.val := by
    show win0_4.index t (0 : Fin 2) * 1024 + 1 * p.val = _; rw [e0]; omega
  have h1 : (((cfg0.win 4).blk t).view.emb (ix2 p q) 1).val = q.val := by
    show win0_4.index t (1 : Fin 2) * 2048 + 1 * q.val = _; rw [e1]; omega
  refine (stored_entry m c t p q ⟨t.val * 1024 + p.val, by omega⟩ rfl).trans ?_
  unfold flat
  exact congrArg₂ (flatAt (V m c main_v0) (V m c main_v4) (V m c main_v1) (V m c main_v3))
    (Fin.ext h0.symm) (Fin.ext h1.symm)

/-- WHAT POINT `t` WRITES BACK is block `t` of the one function. -/
theorem flushed_eq (c : Dev nD) (t : Fin cfg0.N) :
    (dats m 0 c).flushed 4 t = ((cfg0.win 4).blk t).view.read (Elt Ideal) (flat m c) := by
  show (cfg0.win 4).cut (grid0.coords t) ((dats m 0 c).after 4 t) = _
  rw [after0_4]
  unfold out0_4
  rw [View.canon_unit_zero zero_offsets]
  simp only [View.ld_unit_zero (S := S1024x2048) zero_offsets, View.ld_unit_zero (S := S1x2048) zero_offsets,
    View.ld_unit_zero (S := S2048x64) zero_offsets, View.ld_unit_zero (S := S64x2048) zero_offsets]
  funext j
  exact stored_block m c t j

/-! ## The blocks tile the rows -/

/-- An index is in point `t`'s block iff each coordinate is in the block's range on its axis. -/
theorem mem_blk (t : Fin cfg0.N) (i : S16384x2048.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v5).slice (win0_4.rect t)).set ↔ _
  rw [View.set_slice_whole, Rect.mem_set_unit]
  exact Iff.rfl

/-- Row `T` is in the block of point `T / 1024`. -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 16 := N_0
  let t : Fin cfg0.N := ⟨(i 0).val / 1024, by rw [hN]; omega⟩
  obtain ⟨-, -, -, -, -, -, -, -, e0, e1⟩ := idx_facts t
  have e0' : win0_4.index t (0 : Fin 2) = (i 0).val / 1024 := e0
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e0']; omega
  | ⟨1, _⟩ =>
    show win0_4.index t (1 : Fin 2) * 2048 ≤ (i 1).val ∧ (i 1).val < win0_4.index t (1 : Fin 2) * 2048 + 2048
    rw [e1]; omega

/-- THE REGION'S OUTPUT after the run is the one function. -/
theorem final (c : Dev nD) : (dats m 0 c).arrAt 4 cfg0.N = flat m c :=
  (dats m 0 c).arrAt_eq_of_cover 4 (flat m c) (fun t _ => flushed_eq m c t) cover

/-! ## The program's last line, and the operands read back to the arguments -/

/-- The program's result is the region's output viewed as `[4, 4096, 2048]`. -/
theorem result_eq (c : Dev nD) :
    Pipeline.afterTail₀ cfgs (dats m) 0 (V0 m) [hostOps1] c main_v6
      = shapeCast S4x4096x2048 (flat m c) shapeCasts_S16384x2048_S4x4096x2048 := by
  unfold Pipeline.afterTail₀
  show StableHlo.after hostOps1 _ (Proc.devRef .tc main_v6) = _
  after_results
  exact congrArg (fun z => shapeCast S4x4096x2048 z shapeCasts_S16384x2048_S4x4096x2048)
    ((Pipeline.withArrays_arr spec0 launch0.win.arr_inj c _ _ 4).trans (final m c))

/-- Entry `(b, s, o)` of the view is entry `(4096·b + s, o)` of the output. -/
theorem unflatten_apply {α : Type} (x : S16384x2048.Idx → α) (b : Fin 4) (s : Fin 4096) (o : Fin 2048) :
    shapeCast S4x4096x2048 x shapeCasts_S16384x2048_S4x4096x2048 (ix3 b s o)
      = x (ix2 (⟨b.val * 4096 + s.val, by omega⟩ : Fin 16384) o) :=
  shapeCast_apply x _ _ _ (by
    rw [Shape.rowMajor_val_three, Shape.rowMajor_val_two]
    show (b.val * 4096 + s.val) * 2048 + o.val = (b.val * 4096 + s.val) * 2048 + o.val
    rfl)

/-- THE KERNEL PROGRAM'S RESULT, entry by entry, of the arguments: the gate on the rank-64 intermediate. -/
theorem result_at (c : Dev nD) (b : Fin 4) (s : Fin 4096) (o : Fin 2048) :
    shapeCast S4x4096x2048 (flat m c) shapeCasts_S16384x2048_S4x4096x2048 (ix3 b s o)
      = gatedMiddle (m ((c : Thread nD τ).loc main_arg0)) (m ((c : Thread nD τ).loc main_arg1))
          (m ((c : Thread nD τ).loc main_arg2)) (m ((c : Thread nD τ).loc main_arg3)) b s o := by
  refine (unflatten_apply _ b s o).trans ?_
  unfold flat flatAt gatedMiddle gate
  refine Finset.sum_congr rfl fun r _ => ?_
  rw [Entry.up_at m c r o]
  refine congrArg (· * _) ?_
  refine congrArg₂ (· * ·)
    (Finset.sum_congr rfl fun d _ => by rw [Entry.tokens_at m c b s d _ rfl, Entry.down_at m c d r]) ?_
  exact congrArg (fun z => Ideal.logistic z * scale)
    (Finset.sum_congr rfl fun d _ => by rw [Entry.tokens_at m c b s d _ rfl, Entry.gaterow_at m c d])

/-! ## The run -/

/-- Every weakly fair execution of the kernel program terminates with its result at the gated low-rank update
    (gate on the intermediate) of the arguments, and the arguments unchanged. -/
theorem run : θ_run defs (onTc (τ := τ) (main (F := Ideal))) ⟨m, fun _ => 0, ρ⟩ fun r => ∀ c : Dev nD,
      r.2.mem ((c.tc : Thread nD τ).loc main_v6)
        = (fun i => gatedMiddle (m ((c.tc : Thread nD τ).loc main_arg0)) (m ((c.tc : Thread nD τ).loc main_arg1))
            (m ((c.tc : Thread nD τ).loc main_arg2)) (m ((c.tc : Thread nD τ).loc main_arg3)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans
        ((result_eq m c).trans (funext fun i => by
          obtain ⟨b, s, o, rfl⟩ : ∃ (b : Fin 4) (s : Fin 4096) (o : Fin 2048), i = ix3 b s o := ⟨i 0, i 1, i 2, eq_ix3 i⟩
          exact result_at m c b s o)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Blocks

end
-- ==== Proof.FiniteEntries.lean ====
/-
  The precondition, read back: every entry of every input is a real number.

  The precondition is `all (|x| < +∞) ∧ all (|W_down| < +∞) ∧ all (|W_up| < +∞) ∧ all (|gate| < +∞)`, each `all` an
  and-reduction of a comparison over the whole array, and it is stated to be the bit `1`. An and of bits that is `1`
  had both bits `1`; an and-reduction that is `1` met `1` at every index; and an extended real whose absolute value
  `max x (-x)` is below `+∞` (the word `0x7F800000`) is neither `+∞` nor `-∞`, so it is a real number.
-/
import proofs.«129179_g4131758539051_cont_8to1_b_278_10_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx

/-- The scalar shape has one index. -/
instance : Subsingleton S_.Idx := ⟨fun a b => funext fun d => d.elim0⟩

/-- The word `0x7F800000` denotes `+∞`. -/
theorem inf_word : Ideal.ofBits .f32 0x7F800000#32 = ⊤ := by
  simp [Ideal.ofBits, Ideal.ieee]

/-- An extended real with `|x| < +∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ v : ℝ, x = v := by
  have h' : Ideal.cmp .olt (max x (-x)) (Ideal.ofBits .f32 0x7F800000#32) = 1#1 := h
  rw [inf_word] at h'
  induction x using EReal.rec with
  | bot => exact absurd h' (by simp [Ideal.cmp])
  | top => exact absurd h' (by simp [Ideal.cmp])
  | coe r => exact ⟨r, rfl⟩

variable [Facts]

/-- THE PRECONDITION gives real entries in all four inputs. -/
theorem real_entries (a0 : FVec Ideal S4x4096x2048 .f32) (a1 : FVec Ideal S64x2048 .f32) (a2 : FVec Ideal S2048x64 .f32)
    (a3 : FVec Ideal S2048x1 .f32) (h : fn (F := Ideal) a0 a1 a2 a3 = fun _ => 1#1) :
    (∀ i, ∃ v : ℝ, a0 i = v) ∧ (∀ i, ∃ v : ℝ, a1 i = v) ∧ (∀ i, ∃ v : ℝ, a2 i = v) ∧ (∀ i, ∃ v : ℝ, a3 i = v) := by
  have h0 := congrFun h ix0
  dsimp only [fn, fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt (a0 i) (Host.reduce_andi_all _ _ _ _ ix0 h0' i),
    fun i => real_of_abs_lt (a1 i) (Host.reduce_andi_all _ _ _ _ ix0 h1 i),
    fun i => real_of_abs_lt (a2 i) (Host.reduce_andi_all _ _ _ _ ix0 h2 i),
    fun i => real_of_abs_lt (a3 i) (Host.reduce_andi_all _ _ _ _ ix0 h3 i)⟩

end Cert.Pre_finite_inputs.Finite

end
-- ==== Proof.lean ====
/-
  A gated low-rank update, computed two ways, is one function of real inputs.

  For every token `(b, s)` of the input `x` (4 × 4096 tokens of 2048 features) both programs compute the gate
  `p = logistic (x[b, s, ·] · g)` from the gate vector `g`, and the update
  `out[b, s, o] = 2 · p · ∑ r, (∑ d, x[b, s, d] · W_down[r, d]) · W_up[o, r]`.

  The reference multiplies the input row by the gate, contracts with the down-projection, then with the
  up-projection, and multiplies by two last (`GatedLowRank.gatedInput`; Proof/ReferenceReading.lean reads its run
  entry by entry). The kernel flattens the tokens to 16384 rows, transposes the projections, and on each of 16 blocks
  of 1024 rows forms the row's gate score by a lane sum, the rank-64 intermediate by a matrix product, multiplies
  the intermediate by `gate · 2`, and contracts with the transposed up-projection (`GatedLowRank.gatedMiddle`;
  Proof/BodyAtIndex.lean reads the body's store at an entry, Proof/RegionEntry.lean the re-laid operands,
  Proof/BlocksToArray.lean puts the 16 written-back blocks together and reads the final reshape). The two
  arrangements differ by where the gate and the scale enter a sum — distributivity, which holds for real numbers and
  fails at the infinities of the extended reals — so the precondition (every input finite) is used: it makes every
  entry of `x`, `W_down`, `W_up` a real number (Proof/FiniteEntries.lean), the gate is real whatever its argument,
  and Proof/GatedLowRankLaw.lean proves the law. The frames of the two kernel programs are the generated frame runs;
  the reference's frame is its generated run with the result dropped; the idealization rewrote nothing.
-/
import proofs.«129179_g4131758539051_cont_8to1_b_278_10_alg».proof.Defs
import proofs.«129179_g4131758539051_cont_8to1_b_278_10_alg».proof.Proof.Gen.Kernel
import proofs.«129179_g4131758539051_cont_8to1_b_278_10_alg».proof.Proof.Gen.Kernel.Skeleton
import proofs.«129179_g4131758539051_cont_8to1_b_278_10_alg».proof.Proof.Gen.Kernel.Launch
import proofs.«129179_g4131758539051_cont_8to1_b_278_10_alg».proof.Proof.Gen.Kernel.Points
import proofs.«129179_g4131758539051_cont_8to1_b_278_10_alg».proof.Proof.Gen.Kernel.Frame
import proofs.«129179_g4131758539051_cont_8to1_b_278_10_alg».proof.Proof.Gen.KernelIdeal
import proofs.«129179_g4131758539051_cont_8to1_b_278_10_alg».proof.Proof.Gen.KernelIdeal.Skeleton
import proofs.«129179_g4131758539051_cont_8to1_b_278_10_alg».proof.Proof.Gen.KernelIdeal.Launch
import proofs.«129179_g4131758539051_cont_8to1_b_278_10_alg».proof.Proof.Gen.KernelIdeal.Points
import proofs.«129179_g4131758539051_cont_8to1_b_278_10_alg».proof.Proof.Gen.KernelIdeal.Frame
import proofs.«129179_g4131758539051_cont_8to1_b_278_10_alg».proof.Proof.Gen.ReferenceIdeal
import proofs.«129179_g4131758539051_cont_8to1_b_278_10_alg».proof.Proof.Gen.ReferenceIdeal.Run
import proofs.«129179_g4131758539051_cont_8to1_b_278_10_alg».proof.Proof.Gen.ReferenceIdeal.Read
import proofs.«129179_g4131758539051_cont_8to1_b_278_10_alg».proof.Proof.Gen.Pre_finite_inputs
import proofs.«129179_g4131758539051_cont_8to1_b_278_10_alg».proof.Proof.GatedLowRankLaw
import proofs.«129179_g4131758539051_cont_8to1_b_278_10_alg».proof.Proof.ReferenceReading
import proofs.«129179_g4131758539051_cont_8to1_b_278_10_alg».proof.Proof.BlocksToArray
import proofs.«129179_g4131758539051_cont_8to1_b_278_10_alg».proof.Proof.FiniteEntries
import Idealize.ShloMosaic.Adequacy
import Idealize.ShloMosaic.Init

noncomputable section

namespace Cert.Proof

open Idealize.ShloMosaic Idealize.ShloMosaic.TcCoe Idealize.SL.Sem

/-- The kernel program as printed runs and leaves its arguments alone: the generated frame run. -/
theorem frame_kernel : Cert.frame_Kernel := fun m ρ _ => Cert.Kernel.Gen.frame m ρ

/-- So does the same program read at the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On finite inputs both programs end at the gated low-rank update: the kernel's arrangement (gate on the rank-64
    intermediate) is the reference's (gate on the input row) by distributivity over real numbers. -/
theorem algebraic : Cert.algebraic_KernelIdeal_ReferenceIdeal := by
  intro m ρ m' ρ' hpre hagree
  refine ⟨fun c => fun i => Cert.GatedLowRank.gatedInput
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1) (i 2), ?_, ?_⟩
  · refine (θ_run Cert.KernelIdeal.defs _ _).mono (fun r h c => ⟨(h c).1.trans ?_, (h c).2⟩)
      (Cert.KernelIdeal.Blocks.run m ρ)
    obtain ⟨hx, hwd, hwu, -⟩ := Cert.Pre_finite_inputs.Finite.real_entries _ _ _ _ (hpre c)
    exact funext fun i => Cert.GatedLowRank.gatedMiddle_eq_gatedInput _ _ _ _ hx hwd hwu (i 0) (i 1) (i 2)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v17_eq _ _ _ _).trans ?_
    rw [Cert.ReferenceIdeal.Reading.result_eq, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
